-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x64x64x64 : Shape := ⟨5, ![2, 32, 64, 64, 64]⟩
abbrev S8 : Shape := ⟨1, ![8]⟩
abbrev S8x1 : Shape := ⟨2, ![8, 1]⟩
abbrev S5 : Shape := ⟨1, ![5]⟩
abbrev S_ : Shape := ⟨0, ![]⟩

class Facts : Prop where
  bcast_S_S2x32x64x64x64 : S_.BroadcastsInDim S2x32x64x64x64 (![] : Fin 0 → Fin S2x32x64x64x64.rank)
  reducesTo_S2x32x64x64x64_S_d0_1_2_3_4 : S2x32x64x64x64.ReducesTo [0, 1, 2, 3, 4] S_
  h_S_ : 0 < S_.numel
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_

variable [Facts]

def fn {F : FTy → Type} [FloatOps F] (main_arg0 : FVec F S2x32x64x64x64 .f32) (main_arg1 : FVec F S8 .f32) (main_arg2 : FVec F S8x1 .f32) (main_arg3 : IVec S5 32) : IVec S_ 1 :=
  let main_v0 : FVec F S2x32x64x64x64 .f32 := Host.absf main_arg0
  let main_cst : FVec F S_ .f32 := constant S_ .f32 0x7F800000#32
  let main_v1 : FVec F S2x32x64x64x64 .f32 := broadcastInDim S2x32x64x64x64 ![] bcast_S_S2x32x64x64x64 main_cst
  let main_v2 : IVec S2x32x64x64x64 1 := cmpf .olt main_v0 main_v1
  let main_c : IVec S_ 1 := constantI S_ 1 1#1
  let main_v3 : IVec S_ 1 := (fun x v => Host.reduce IntOp.andi x v reducesTo_S2x32x64x64x64_S_d0_1_2_3_4 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x1 .f32 := Host.absf main_arg2
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  main_v13
-- ==== Kernel.lean ====
abbrev S2x32x64x64x64 : Shape := ⟨5, ![2, 32, 64, 64, 64]⟩
abbrev S8 : Shape := ⟨1, ![8]⟩
abbrev S8x1 : Shape := ⟨2, ![8, 1]⟩
abbrev S5 : Shape := ⟨1, ![5]⟩
abbrev S64x64x64x64 : Shape := ⟨4, ![64, 64, 64, 64]⟩
abbrev S1x8 : Shape := ⟨2, ![1, 8]⟩
abbrev S64x128x128x128 : Shape := ⟨4, ![64, 128, 128, 128]⟩
abbrev S4x8x64x64 : Shape := ⟨4, ![4, 8, 64, 64]⟩
abbrev S4x16x128x128 : Shape := ⟨4, ![4, 16, 128, 128]⟩
abbrev S2048x64 : Shape := ⟨2, ![2048, 64]⟩
abbrev S64x128 : Shape := ⟨2, ![64, 128]⟩
abbrev S1x1 : Shape := ⟨2, ![1, 1]⟩
abbrev S2048x128 : Shape := ⟨2, ![2048, 128]⟩
abbrev S4x8x64x128 : Shape := ⟨4, ![4, 8, 64, 128]⟩
abbrev S4x8x64x1x128 : Shape := ⟨5, ![4, 8, 64, 1, 128]⟩
abbrev S4x8x64x2x128 : Shape := ⟨5, ![4, 8, 64, 2, 128]⟩
abbrev S4x8x128x128 : Shape := ⟨4, ![4, 8, 128, 128]⟩
abbrev S4x8x1x128x128 : Shape := ⟨5, ![4, 8, 1, 128, 128]⟩
abbrev S4x8x2x128x128 : Shape := ⟨5, ![4, 8, 2, 128, 128]⟩
abbrev S2x32x128x128x128 : Shape := ⟨5, ![2, 32, 128, 128, 128]⟩

abbrev nBuf : Space → Nat
  | .hbm => 10
  | .vmem => 6
  | .smem => 0
  | _ => 0

abbrev bufTy : (tb : Table) → Fin (tcTables nBuf tb) → BufTy
  | .hbm, ⟨0, _⟩ => ⟨S2x32x64x64x64, .f32⟩
  | .hbm, ⟨1, _⟩ => ⟨S8, .f32⟩
  | .hbm, ⟨2, _⟩ => ⟨S8x1, .f32⟩
  | .hbm, ⟨3, _⟩ => ⟨S5, .i32⟩
  | .hbm, ⟨4, _⟩ => ⟨S64x64x64x64, .f32⟩
  | .hbm, ⟨5, _⟩ => ⟨S8, .f32⟩
  | .hbm, ⟨6, _⟩ => ⟨S1x8, .f32⟩
  | .hbm, ⟨7, _⟩ => ⟨S1x8, .f32⟩
  | .hbm, ⟨8, _⟩ => ⟨S64x128x128x128, .f32⟩
  | .hbm, ⟨9, _⟩ => ⟨S2x32x128x128x128, .f32⟩
  | .local _ .vmem, ⟨0, _⟩ => ⟨S4x8x64x64, .f32⟩
  | .local _ .vmem, ⟨1, _⟩ => ⟨S4x8x64x64, .f32⟩
  | .local _ .vmem, ⟨2, _⟩ => ⟨S1x8, .f32⟩
  | .local _ .vmem, ⟨3, _⟩ => ⟨S1x8, .f32⟩
  | .local _ .vmem, ⟨4, _⟩ => ⟨S4x16x128x128, .f32⟩
  | .local _ .vmem, ⟨5, _⟩ => ⟨S4x16x128x128, .f32⟩
  | _, _ => ⟨S2x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x32x64x64x64_S64x64x64x64 : S2x32x64x64x64.ShapeCasts S64x64x64x64
  shapeCasts_S8x1_S8 : S8x1.ShapeCasts S8
  shapeCasts_S8_S1x8 : S8.ShapeCasts S1x8
  inb_S4x8x64x64_S4x8x64x64_0_0_0_0 : ∀ a, (![0, 0, 0, 0] : Fin 4 → Nat) a + S4x8x64x64.size a ≤ S4x8x64x64.size a
  h_S4x8x64x64 : 0 < S4x8x64x64.numel
  shapeCasts_S4x8x64x64_S4x8x64x64 : S4x8x64x64.ShapeCasts S4x8x64x64
  shapeCasts_S4x8x64x64_S2048x64 : S4x8x64x64.ShapeCasts S2048x64
  iota_S64x128_d0_w32 : S64x128.Iotas .tc 32 [0]
  iota_S64x128_d1_w32 : S64x128.Iotas .tc 32 [1]
  natLt_1_32 : 1 < 32
  bitsLt_bf16_f32 : FTy.bits .bf16 < FTy.bits .f32
  inb_S1x8_S1x1_0_0 : ∀ a, (![0, 0] : Fin 2 → Nat) a + S1x1.size a ≤ S1x8.size a
  h_S1x1 : 0 < S1x1.numel
  inpos_S1x1_p0_0 : ∀ a, (![0, 0] : Fin 2 → Nat) a < S1x1.size a
  inb_S1x8_S1x1_0_1 : ∀ a, (![0, 1] : Fin 2 → Nat) a + S1x1.size a ≤ S1x8.size a
  shapeCasts_S2048x128_S4x8x64x128 : S2048x128.ShapeCasts S4x8x64x128
  inb_S1x8_S1x1_0_2 : ∀ a, (![0, 2] : Fin 2 → Nat) a + S1x1.size a ≤ S1x8.size a
  inb_S1x8_S1x1_0_3 : ∀ a, (![0, 3] : Fin 2 → Nat) a + S1x1.size a ≤ S1x8.size a
  shapeCasts_S4x8x64x128_S4x8x64x1x128 : S4x8x64x128.ShapeCasts S4x8x64x1x128
  concatenates_S4x8x64x1x128_S4x8x64x1x128_S4x8x64x2x128_d3 : Shape.Concatenates [S4x8x64x1x128, S4x8x64x1x128] S4x8x64x2x128 3
  shapeCasts_S4x8x64x2x128_S4x8x128x128 : S4x8x64x2x128.ShapeCasts S4x8x128x128
  inb_S1x8_S1x1_0_4 : ∀ a, (![0, 4] : Fin 2 → Nat) a + S1x1.size a ≤ S1x8.size a
  inb_S1x8_S1x1_0_5 : ∀ a, (![0, 5] : Fin 2 → Nat) a + S1x1.size a ≤ S1x8.size a
  inb_S1x8_S1x1_0_6 : ∀ a, (![0, 6] : Fin 2 → Nat) a + S1x1.size a ≤ S1x8.size a
  inb_S1x8_S1x1_0_7 : ∀ a, (![0, 7] : Fin 2 → Nat) a + S1x1.size a ≤ S1x8.size a
  shapeCasts_S4x8x128x128_S4x8x1x128x128 : S4x8x128x128.ShapeCasts S4x8x1x128x128
  concatenates_S4x8x1x128x128_S4x8x1x128x128_S4x8x2x128x128_d2 : Shape.Concatenates [S4x8x1x128x128, S4x8x1x128x128] S4x8x2x128x128 2
  shapeCasts_S4x8x2x128x128_S4x16x128x128 : S4x8x2x128x128.ShapeCasts S4x16x128x128
  inb_S4x16x128x128_S4x16x128x128_0_0_0_0 : ∀ a, (![0, 0, 0, 0] : Fin 4 → Nat) a + S4x16x128x128.size a ≤ S4x16x128x128.size a
  h_S4x16x128x128 : 0 < S4x16x128x128.numel
  shapeCasts_S64x128x128x128_S2x32x128x128x128 : S64x128x128x128.ShapeCasts S2x32x128x128x128
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x64x64.size a ≤ S64x64x64x64.size a
  hwx0_0 : ∀ i : grid0.Coords, EltTy.bits .f32 = 32 ∨ (Rect.block (s := S64x64x64x64) S4x8x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x16x128x128.size a ≤ S64x128x128x128.size a
  hwx0_3 : ∀ i : grid0.Coords, EltTy.bits .f32 = 32 ∨ (Rect.block (s := S64x128x128x128) S4x16x128x128.size (cc0_transform_3 i) (hinb0_3 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_v0) S4x8x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x16x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x32x64x64x64 : Shape := ⟨5, ![2, 32, 64, 64, 64]⟩
abbrev S8 : Shape := ⟨1, ![8]⟩
abbrev S8x1 : Shape := ⟨2, ![8, 1]⟩
abbrev S5 : Shape := ⟨1, ![5]⟩
abbrev S16777216x1 : Shape := ⟨2, ![16777216, 1]⟩
abbrev S1x8 : Shape := ⟨2, ![1, 8]⟩
abbrev S16777216x8 : Shape := ⟨2, ![16777216, 8]⟩
abbrev S2x32x64x64x64x2x2x2 : Shape := ⟨8, ![2, 32, 64, 64, 64, 2, 2, 2]⟩
abbrev S2x32x64x2x64x2x64x2 : Shape := ⟨8, ![2, 32, 64, 2, 64, 2, 64, 2]⟩
abbrev S2x32x128x128x128 : Shape := ⟨5, ![2, 32, 128, 128, 128]⟩

abbrev nBuf : Space → Nat
  | .hbm => 13
  | .vmem => 0
  | .smem => 0
  | _ => 0

abbrev bufTy : (tb : Table) → Fin (tcTables nBuf tb) → BufTy
  | .hbm, ⟨0, _⟩ => ⟨S2x32x64x64x64, .f32⟩
  | .hbm, ⟨1, _⟩ => ⟨S8, .f32⟩
  | .hbm, ⟨2, _⟩ => ⟨S8x1, .f32⟩
  | .hbm, ⟨3, _⟩ => ⟨S5, .i32⟩
  | .hbm, ⟨4, _⟩ => ⟨S16777216x1, .f32⟩
  | .hbm, ⟨5, _⟩ => ⟨S1x8, .f32⟩
  | .hbm, ⟨6, _⟩ => ⟨S16777216x8, .f32⟩
  | .hbm, ⟨7, _⟩ => ⟨S1x8, .f32⟩
  | .hbm, ⟨8, _⟩ => ⟨S16777216x8, .f32⟩
  | .hbm, ⟨9, _⟩ => ⟨S16777216x8, .f32⟩
  | .hbm, ⟨10, _⟩ => ⟨S2x32x64x64x64x2x2x2, .f32⟩
  | .hbm, ⟨11, _⟩ => ⟨S2x32x64x2x64x2x64x2, .f32⟩
  | .hbm, ⟨12, _⟩ => ⟨S2x32x128x128x128, .f32⟩
  | _, _ => ⟨S2x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S2x32x64x64x64_S16777216x1 : S2x32x64x64x64.ShapeCasts S16777216x1
  transposes_S8x1_S1x8_1_0 : S8x1.Transposes [1, 0] S1x8
  bcast_S8_S1x8_1 : S8.BroadcastsInDim S1x8 (![1] : Fin 1 → Fin S1x8.rank)
  bcast_S1x8_S16777216x8_0_1 : S1x8.BroadcastsInDim S16777216x8 (![0, 1] : Fin 2 → Fin S16777216x8.rank)
  shapeCasts_S16777216x8_S2x32x64x64x64x2x2x2 : S16777216x8.ShapeCasts S2x32x64x64x64x2x2x2
  transposes_S2x32x64x64x64x2x2x2_S2x32x64x2x64x2x64x2_0_1_2_5_3_6_4_7 : S2x32x64x64x64x2x2x2.Transposes [0, 1, 2, 5, 3, 6, 4, 7] S2x32x64x2x64x2x64x2
  shapeCasts_S2x32x64x2x64x2x64x2_S2x32x128x128x128 : S2x32x64x2x64x2x64x2.ShapeCasts S2x32x128x128x128
  dot_S16777216x1_S1x8_S16777216x8_1_0_0_1_n_n_wf : DotDims.WF S16777216x1 S1x8 S16777216x8 [1] [0] [0] [1] [] []

variable [Facts₀]

def dot_S16777216x1_S1x8_S16777216x8_1_0_0_1_n_n : DotDims S16777216x1 S1x8 S16777216x8 where
  lhsContracting := [1]
  rhsContracting := [0]
  lhsNonContracting := [0]
  rhsNonContracting := [1]
  lhsBatch := []
  rhsBatch := []
  wf := dot_S16777216x1_S1x8_S16777216x8_1_0_0_1_n_n_wf

class Facts : Prop extends Facts₀ where

variable [Facts]
-- ==== Proof.Selector.lean ====
/-
  The two 0/1 matrices the body multiplies by, read at an entry, and the sums they collapse.

  Over rows k < 64 and columns c < 128 the body builds E(k, c) = [c = 2k] and O(k, c) = [c = 2k + 1] from two
  coordinate arrays by 32-bit integer arithmetic; k and c are far below 2^32, so the machine comparison is the
  comparison of the numbers.  A row vector f times E keeps, in column c, the one entry f(c/2) when c is even and
  nothing when c is odd; times O, the entry f(c/2) when c is odd.  Every other term of the sum is f(k)·0 = 0,
  which holds for every extended real f(k), infinite ones included.
-/
import proofs.«181066_j8332236554530_1_alg».proof.Proof.Gen.KernelIdeal.Skeleton
import Idealize.ShloMosaic.Lib.Pipeline.Value
import Idealize.ShloMosaic.Lib.ValueIdx
import Idealize.ShloMosaic.Lib.Affine
import Idealize.ShloMosaic.PureOps.Ideal.Laws

noncomputable section

namespace Cert.KernelIdeal.Hand

open Cert.KernelIdeal Cert.KernelIdeal.Gen Idealize.ShloMosaic Idealize.ShloMosaic.ValueIdx

/-- A comparison's one-bit word, widened to 32 bits and read as a number: 1 where the words are equal, 0 elsewhere. -/
theorem indicator (x y : BitVec 32) :
    FloatOps.sitofp (F := Ideal) .f32 ((IntOp.cmpi .eq x y).setWidth 32) = if x = y then (1 : EReal) else 0 := by
  by_cases h : x = y
  · rw [if_pos h, IntOp.cmpi_eq.mpr h]
    show (((BitVec.setWidth 32 (1#1)).toInt : ℝ) : EReal) = 1
    rw [show (BitVec.setWidth 32 (1#1)).toInt = 1 from by decide]
    norm_num
  · rw [if_neg h, eq_zero_of_ne_one (fun h1 => h (IntOp.cmpi_eq.mp h1))]
    show (((BitVec.setWidth 32 (0#1)).toInt : ℝ) : EReal) = 0
    rw [show (BitVec.setWidth 32 (0#1)).toInt = 0 from by decide]
    norm_num

/-- Below 2^32 the 32-bit product 2·k is the number 2k. -/
theorem word_eq_double (k : Fin 64) (c : Fin 128) :
    BitVec.ofNat 32 c.val = IntOp.muli (2#32) (BitVec.ofNat 32 k.val) ↔ c.val = 2 * k.val := by
  have hk := k.isLt; have hc := c.isLt
  rw [← BitVec.toNat_inj]
  show (BitVec.ofNat 32 c.val).toNat = (2#32 * BitVec.ofNat 32 k.val).toNat ↔ _
  rw [BitVec.toNat_mul, BitVec.toNat_ofNat, BitVec.toNat_ofNat, BitVec.toNat_ofNat]
  omega

/-- Below 2^32 the 32-bit sum 2·k + 1 is the number 2k + 1. -/
theorem word_eq_double_succ (k : Fin 64) (c : Fin 128) :
    BitVec.ofNat 32 c.val = IntOp.addi (IntOp.muli (2#32) (BitVec.ofNat 32 k.val)) (1#32) ↔ c.val = 2 * k.val + 1 := by
  have hk := k.isLt; have hc := c.isLt
  rw [← BitVec.toNat_inj]
  show (BitVec.ofNat 32 c.val).toNat = (2#32 * BitVec.ofNat 32 k.val + 1#32).toNat ↔ _
  rw [BitVec.toNat_add, BitVec.toNat_mul, BitVec.toNat_ofNat, BitVec.toNat_ofNat, BitVec.toNat_ofNat, BitVec.toNat_ofNat]
  omega

/-- The matrix that keeps the even columns: E(k, c) = 1 when c = 2k, else 0. -/
theorem evenSel_apply (k : Fin 64) (c : Fin 128) :
    (k0_pay3 (F := Ideal)) (ix2 k c) = if c.val = 2 * k.val then (1 : EReal) else 0 := by
  have e : (k0_pay3 (F := Ideal)) (ix2 k c)
      = FloatOps.sitofp (F := Ideal) .f32 ((IntOp.cmpi .eq (iota .tc S64x128 32 [1] iota_S64x128_d1_w32 (ix2 k c))
          (IntOp.muli (2#32) (iota .tc S64x128 32 [0] iota_S64x128_d0_w32 (ix2 k c)))).setWidth 32) := rfl
  rw [e, iota_single_apply, iota_single_apply, indicator]
  exact if_congr (word_eq_double k c) rfl rfl

/-- The matrix that keeps the odd columns: O(k, c) = 1 when c = 2k + 1, else 0. -/
theorem oddSel_apply (k : Fin 64) (c : Fin 128) :
    (k0_pay4 (F := Ideal)) (ix2 k c) = if c.val = 2 * k.val + 1 then (1 : EReal) else 0 := by
  have e : (k0_pay4 (F := Ideal)) (ix2 k c)
      = FloatOps.sitofp (F := Ideal) .f32 ((IntOp.cmpi .eq (iota .tc S64x128 32 [1] iota_S64x128_d1_w32 (ix2 k c))
          (IntOp.addi (IntOp.muli (2#32) (iota .tc S64x128 32 [0] iota_S64x128_d0_w32 (ix2 k c))) (1#32))).setWidth 32) := rfl
  rw [e, iota_single_apply, iota_single_apply, indicator]
  exact if_congr (word_eq_double_succ k c) rfl rfl

/-- A row times the even-column matrix: column c holds f(c/2) when c is even and 0 when c is odd. -/
theorem sum_evenSel (f : Fin 64 → EReal) (c : Fin 128) :
    (∑ k : Fin 64, f k * (if c.val = 2 * k.val then (1 : EReal) else 0))
      = if c.val % 2 = 0 then f ⟨c.val / 2, by have := c.isLt; omega⟩ else 0 := by
  have hc := c.isLt
  by_cases h : c.val % 2 = 0
  · rw [if_pos h, Finset.sum_eq_single (⟨c.val / 2, by omega⟩ : Fin 64)]
    · rw [if_pos (by show c.val = 2 * (c.val / 2); omega), mul_one]
    · intro k _ hk
      rw [if_neg (fun e => hk (Fin.ext (by show k.val = c.val / 2; omega))), mul_zero]
    · intro h'; exact absurd (Finset.mem_univ _) h'
  · rw [if_neg h]
    exact Finset.sum_eq_zero fun k _ => by rw [if_neg (by omega), mul_zero]

/-- A row times the odd-column matrix: column c holds f(c/2) when c is odd and 0 when c is even. -/
theorem sum_oddSel (f : Fin 64 → EReal) (c : Fin 128) :
    (∑ k : Fin 64, f k * (if c.val = 2 * k.val + 1 then (1 : EReal) else 0))
      = if c.val % 2 = 0 then 0 else f ⟨c.val / 2, by have := c.isLt; omega⟩ := by
  have hc := c.isLt
  by_cases h : c.val % 2 = 0
  · rw [if_pos h]
    exact Finset.sum_eq_zero fun k _ => by rw [if_neg (by omega), mul_zero]
  · rw [if_neg h, Finset.sum_eq_single (⟨c.val / 2, by omega⟩ : Fin 64)]
    · rw [if_pos (by show c.val = 2 * (c.val / 2) + 1; omega), mul_one]
    · intro k _ hk
      rw [if_neg (fun e => hk (Fin.ext (by show k.val = c.val / 2; omega))), mul_zero]
    · intro h'; exact absurd (Finset.mem_univ _) h'

end Cert.KernelIdeal.Hand

end
-- ==== Proof.Planes.lean ====
/-
  The body's building blocks, each read at an entry.

  The input block x (4 × 8 × 64 × 64, coordinates a, d, y, z) is laid flat as 2048 rows of 64: row
  r = (a·8 + d)·64 + y.  Four kinds of step follow.
  * An affine plane x·w + m with scalars w, m.
  * Lane selection: two planes A, B are multiplied by the even-column and odd-column 0/1 matrices and added, giving rows
    of 128 whose column c is A(r, c/2) for even c and B(r, c/2) for odd c; the result is folded back to (a, d, y, c).
  * Row interleave: two arrays P, Q over (a, d, y, c) are stacked on a new axis after y and that pair of axes is
    merged, so row Y of the result is row Y/2 of P for even Y and of Q for odd Y.
  * Depth interleave: the same along d, giving depth D from D/2 of P (even D) or Q (odd D).
  Merging or splitting axes never moves an entry's row-major position, which is how each reshape is read.
-/
import proofs.«181066_j8332236554530_1_alg».proof.Proof.Selector

noncomputable section

namespace Cert.KernelIdeal.Hand

open Cert.KernelIdeal Cert.KernelIdeal.Gen Idealize.ShloMosaic Idealize.ShloMosaic.ValueIdx

/-- The flat row of the block coordinates (a, d, y). -/
def flatRow (a : Fin 4) (d : Fin 8) (y : Fin 64) : Fin 2048 :=
  ⟨(a.val * 8 + d.val) * 64 + y.val, by have := a.isLt; have := d.isLt; have := y.isLt; omega⟩

theorem flatRow_val (a : Fin 4) (d : Fin 8) (y : Fin 64) : (flatRow a d y).val = (a.val * 8 + d.val) * 64 + y.val := rfl

/-- Half of a coordinate below 128. -/
def halfOf (Y : Fin 128) : Fin 64 := ⟨Y.val / 2, by have := Y.isLt; omega⟩
/-- Half of a depth below 16. -/
def halfDepth (D : Fin 16) : Fin 8 := ⟨D.val / 2, by have := D.isLt; omega⟩

theorem halfOf_val (Y : Fin 128) : (halfOf Y).val = Y.val / 2 := rfl
theorem halfDepth_val (D : Fin 16) : (halfDepth D).val = D.val / 2 := rfl

/-! ## The block laid flat -/

/-- Row (a·8 + d)·64 + y of the flat block is row (a, d, y) of the block. -/
theorem rows_apply (v0 : Vec Ideal S4x8x64x64 .f32) (a : Fin 4) (d : Fin 8) (y z : Fin 64) :
    k0_pay2 v0 (ix2 (flatRow a d y) z) = v0 (ix4 a d y z) := by
  unfold k0_pay2
  rw [shapeCast_self]
  exact shapeCast_apply v0 shapeCasts_S4x8x64x64_S2048x64 (ix2 (flatRow a d y) z) (ix4 a d y z) (by
    rw [Shape.rowMajor_val_four, Shape.rowMajor_val_two]
    show ((a.val * 8 + d.val) * 64 + y.val) * 64 + z.val = ((a.val * 8 + d.val) * 64 + y.val) * 64 + z.val
    rfl)

/-! ## An affine plane -/

/-- x·w + m, entry by entry. -/
def affine (v : FVec Ideal S2048x64 .f32) (w m : Ideal .f32) : FVec Ideal S2048x64 .bf16 :=
  truncf .bf16 (addf (mulf v (broadcast S2048x64 w)) (broadcast S2048x64 m)) bitsLt_bf16_f32

theorem affine_apply (v : FVec Ideal S2048x64 .f32) (w m : Ideal .f32) (i : S2048x64.Idx) :
    affine v w m i = v i * w + m := rfl

/-! ## Lane selection -/

theorem lhs_row (i : S2048x128.Idx) (q : dot_S2048x64_S64x128_S2048x128_1_0_0_1_n_n.contr.Idx) :
    (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl

theorem rhs_col (i : S2048x128.Idx) (q : dot_S2048x64_S64x128_S2048x128_1_0_0_1_n_n.contr.Idx) :
    (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl

/-- A matrix product into a zero accumulator, at an entry: the sum over the 64 shared positions. -/
theorem matmul_row (va : FVec Ideal S2048x64 .bf16) (e : FVec Ideal S64x128 .bf16) (r : Fin 2048) (c : Fin 128) :
    matmul dot_S2048x64_S64x128_S2048x128_1_0_0_1_n_n none va e (constant (F := Ideal) S2048x128 .f32 0x00000000#32) (ix2 r c)
      = ∑ k : Fin 64, va (ix2 r k) * e (ix2 k c) := by
  simp only [matmul]
  rw [Ideal.matmul_constant_zero_apply, ← Equiv.sum_comp (contrEquiv1 dot_S2048x64_S64x128_S2048x128_1_0_0_1_n_n 64 rfl rfl).symm]
  refine Finset.sum_congr rfl fun k _ => ?_
  have hk := contrEquiv1_symm_val dot_S2048x64_S64x128_S2048x128_1_0_0_1_n_n 64 rfl rfl k
  have el : dot_S2048x64_S64x128_S2048x128_1_0_0_1_n_n.lhsIdx (ix2 r c) ((contrEquiv1 dot_S2048x64_S64x128_S2048x128_1_0_0_1_n_n 64 rfl rfl).symm k) = ix2 r k := funext fun a => Fin.ext (by
    match a with
    | ⟨0, _⟩ => exact lhs_row _ _
    | ⟨1, _⟩ => exact (dot_S2048x64_S64x128_S2048x128_1_0_0_1_n_n.lhsIdx_val_of_single rfl _ _).trans hk)
  have er : dot_S2048x64_S64x128_S2048x128_1_0_0_1_n_n.rhsIdx (ix2 r c) ((contrEquiv1 dot_S2048x64_S64x128_S2048x128_1_0_0_1_n_n 64 rfl rfl).symm k) = ix2 k c := funext fun a => Fin.ext (by
    match a with
    | ⟨0, _⟩ => exact (dot_S2048x64_S64x128_S2048x128_1_0_0_1_n_n.rhsIdx_val_of_single rfl _ _).trans hk
    | ⟨1, _⟩ => exact rhs_col _ _)
  rw [el, er]

/-- Two planes times two matrices, added, folded back to (a, d, y, c). -/
def lanes (e0 e1 : FVec Ideal S64x128 .bf16) (va vb : FVec Ideal S2048x64 .bf16) : FVec Ideal S4x8x64x128 .f32 :=
  shapeCast S4x8x64x128 (addf (matmul dot_S2048x64_S64x128_S2048x128_1_0_0_1_n_n none va e0 (constant (F := Ideal) S2048x128 .f32 0x00000000#32))
      (matmul dot_S2048x64_S64x128_S2048x128_1_0_0_1_n_n none vb e1 (constant (F := Ideal) S2048x128 .f32 0x00000000#32))) shapeCasts_S2048x128_S4x8x64x128

theorem lanes_apply (e0 e1 : FVec Ideal S64x128 .bf16) (va vb : FVec Ideal S2048x64 .bf16) (a : Fin 4) (d : Fin 8) (y : Fin 64) (c : Fin 128) :
    lanes e0 e1 va vb (ix4 a d y c)
      = (∑ k : Fin 64, va (ix2 (flatRow a d y) k) * e0 (ix2 k c)) + ∑ k : Fin 64, vb (ix2 (flatRow a d y) k) * e1 (ix2 k c) := by
  unfold lanes
  rw [shapeCast_apply _ shapeCasts_S2048x128_S4x8x64x128 (ix4 a d y c) (ix2 (flatRow a d y) c) (by
    rw [Shape.rowMajor_val_two, Shape.rowMajor_val_four]
    show ((a.val * 8 + d.val) * 64 + y.val) * 128 + c.val = ((a.val * 8 + d.val) * 64 + y.val) * 128 + c.val
    rfl)]
  rw [addf_apply, matmul_row, matmul_row]

/-- With the even- and odd-column matrices: column c is plane A at c/2 when c is even, plane B at c/2 when c is odd. -/
theorem lanes_sel_apply (va vb : FVec Ideal S2048x64 .bf16) (a : Fin 4) (d : Fin 8) (y : Fin 64) (c : Fin 128) :
    lanes (k0_pay3 (F := Ideal)) (k0_pay4 (F := Ideal)) va vb (ix4 a d y c)
      = if c.val % 2 = 0 then va (ix2 (flatRow a d y) (halfOf c)) else vb (ix2 (flatRow a d y) (halfOf c)) := by
  rw [lanes_apply]
  simp only [evenSel_apply, oddSel_apply]
  rw [sum_evenSel (fun k => va (ix2 (flatRow a d y) k)) c, sum_oddSel (fun k => vb (ix2 (flatRow a d y) k)) c]
  by_cases h : c.val % 2 = 0
  · rw [if_pos h, if_pos h, if_pos h, add_zero]; rfl
  · rw [if_neg h, if_neg h, if_neg h, zero_add]; rfl

/-! ## Row interleave -/

/-- Two arrays stacked on a new axis after y, that axis merged with y. -/
def rowsIl (p q : FVec Ideal S4x8x64x128 .f32) : FVec Ideal S4x8x128x128 .f32 :=
  shapeCast S4x8x128x128 (concatenate S4x8x64x2x128 3
    [⟨S4x8x64x1x128, shapeCast S4x8x64x1x128 p shapeCasts_S4x8x64x128_S4x8x64x1x128⟩,
     ⟨S4x8x64x1x128, shapeCast S4x8x64x1x128 q shapeCasts_S4x8x64x128_S4x8x64x1x128⟩]
    concatenates_S4x8x64x1x128_S4x8x64x1x128_S4x8x64x2x128_d3) shapeCasts_S4x8x64x2x128_S4x8x128x128

theorem unit_row_apply (p : FVec Ideal S4x8x64x128 .f32) (a : Fin 4) (d : Fin 8) (y : Fin 64) (c : Fin 128) :
    shapeCast S4x8x64x1x128 p shapeCasts_S4x8x64x128_S4x8x64x1x128 (ix5 a d y (0 : Fin 1) c) = p (ix4 a d y c) :=
  shapeCast_apply p shapeCasts_S4x8x64x128_S4x8x64x1x128 (ix5 a d y (0 : Fin 1) c) (ix4 a d y c) (by
    rw [Shape.rowMajor_val_four, Shape.rowMajor_val_five]
    show ((a.val * 8 + d.val) * 64 + y.val) * 128 + c.val = (((a.val * 8 + d.val) * 64 + y.val) * 1 + 0) * 128 + c.val
    omega)

theorem rowsIl_apply (p q : FVec Ideal S4x8x64x128 .f32) (a : Fin 4) (d : Fin 8) (Y c : Fin 128) :
    rowsIl p q (ix4 a d Y c) = if Y.val % 2 = 0 then p (ix4 a d (halfOf Y) c) else q (ix4 a d (halfOf Y) c) := by
  have hY := Y.isLt
  unfold rowsIl
  by_cases h : Y.val % 2 = 0
  · rw [if_pos h, shapeCast_apply _ shapeCasts_S4x8x64x2x128_S4x8x128x128 (ix4 a d Y c) (ix5 a d (halfOf Y) (0 : Fin 2) c) (by
      rw [Shape.rowMajor_val_five, Shape.rowMajor_val_four]
      show (((a.val * 8 + d.val) * 64 + Y.val / 2) * 2 + 0) * 128 + c.val = ((a.val * 8 + d.val) * 128 + Y.val) * 128 + c.val
      omega)]
    rw [concatenate_pair_apply_left (t := S4x8x64x2x128) (s₁ := S4x8x64x1x128) (s₂ := S4x8x64x1x128) (3 : Fin 5) _ _ concatenates_S4x8x64x1x128_S4x8x64x1x128_S4x8x64x2x128_d3
      (ix5 a d (halfOf Y) (0 : Fin 2) c) rfl (ix5 a d (halfOf Y) (0 : Fin 1) c) (fun b => by
        match b with
        | ⟨0, _⟩ => rfl
        | ⟨1, _⟩ => rfl
        | ⟨2, _⟩ => rfl
        | ⟨3, _⟩ => rfl
        | ⟨4, _⟩ => rfl)]
    exact unit_row_apply p a d (halfOf Y) c
  · rw [if_neg h, shapeCast_apply _ shapeCasts_S4x8x64x2x128_S4x8x128x128 (ix4 a d Y c) (ix5 a d (halfOf Y) (1 : Fin 2) c) (by
      rw [Shape.rowMajor_val_five, Shape.rowMajor_val_four]
      show (((a.val * 8 + d.val) * 64 + Y.val / 2) * 2 + 1) * 128 + c.val = ((a.val * 8 + d.val) * 128 + Y.val) * 128 + c.val
      omega)]
    rw [concatenate_pair_apply_right (t := S4x8x64x2x128) (s₁ := S4x8x64x1x128) (s₂ := S4x8x64x1x128) (3 : Fin 5) _ _ concatenates_S4x8x64x1x128_S4x8x64x1x128_S4x8x64x2x128_d3
      (ix5 a d (halfOf Y) (1 : Fin 2) c) rfl rfl (ix5 a d (halfOf Y) (0 : Fin 1) c) (fun b hb => by
        match b with
        | ⟨0, _⟩ => rfl
        | ⟨1, _⟩ => rfl
        | ⟨2, _⟩ => rfl
        | ⟨3, _⟩ => exact absurd rfl hb
        | ⟨4, _⟩ => rfl) rfl]
    exact unit_row_apply q a d (halfOf Y) c

/-! ## Depth interleave -/

/-- Two arrays stacked on a new axis after d, that axis merged with d. -/
def depthIl (p q : FVec Ideal S4x8x128x128 .f32) : FVec Ideal S4x16x128x128 .f32 :=
  shapeCast S4x16x128x128 (concatenate S4x8x2x128x128 2
    [⟨S4x8x1x128x128, shapeCast S4x8x1x128x128 p shapeCasts_S4x8x128x128_S4x8x1x128x128⟩,
     ⟨S4x8x1x128x128, shapeCast S4x8x1x128x128 q shapeCasts_S4x8x128x128_S4x8x1x128x128⟩]
    concatenates_S4x8x1x128x128_S4x8x1x128x128_S4x8x2x128x128_d2) shapeCasts_S4x8x2x128x128_S4x16x128x128

theorem unit_depth_apply (p : FVec Ideal S4x8x128x128 .f32) (a : Fin 4) (d : Fin 8) (Y c : Fin 128) :
    shapeCast S4x8x1x128x128 p shapeCasts_S4x8x128x128_S4x8x1x128x128 (ix5 a d (0 : Fin 1) Y c) = p (ix4 a d Y c) :=
  shapeCast_apply p shapeCasts_S4x8x128x128_S4x8x1x128x128 (ix5 a d (0 : Fin 1) Y c) (ix4 a d Y c) (by
    rw [Shape.rowMajor_val_four, Shape.rowMajor_val_five]
    show ((a.val * 8 + d.val) * 128 + Y.val) * 128 + c.val = (((a.val * 8 + d.val) * 1 + 0) * 128 + Y.val) * 128 + c.val
    omega)

theorem depthIl_apply (p q : FVec Ideal S4x8x128x128 .f32) (a : Fin 4) (D : Fin 16) (Y c : Fin 128) :
    depthIl p q (ix4 a D Y c) = if D.val % 2 = 0 then p (ix4 a (halfDepth D) Y c) else q (ix4 a (halfDepth D) Y c) := by
  have hD := D.isLt
  unfold depthIl
  by_cases h : D.val % 2 = 0
  · rw [if_pos h, shapeCast_apply _ shapeCasts_S4x8x2x128x128_S4x16x128x128 (ix4 a D Y c) (ix5 a (halfDepth D) (0 : Fin 2) Y c) (by
      rw [Shape.rowMajor_val_five, Shape.rowMajor_val_four]
      show (((a.val * 8 + D.val / 2) * 2 + 0) * 128 + Y.val) * 128 + c.val = ((a.val * 16 + D.val) * 128 + Y.val) * 128 + c.val
      omega)]
    rw [concatenate_pair_apply_left (t := S4x8x2x128x128) (s₁ := S4x8x1x128x128) (s₂ := S4x8x1x128x128) (2 : Fin 5) _ _ concatenates_S4x8x1x128x128_S4x8x1x128x128_S4x8x2x128x128_d2
      (ix5 a (halfDepth D) (0 : Fin 2) Y c) rfl (ix5 a (halfDepth D) (0 : Fin 1) Y c) (fun b => by
        match b with
        | ⟨0, _⟩ => rfl
        | ⟨1, _⟩ => rfl
        | ⟨2, _⟩ => rfl
        | ⟨3, _⟩ => rfl
        | ⟨4, _⟩ => rfl)]
    exact unit_depth_apply p a (halfDepth D) Y c
  · rw [if_neg h, shapeCast_apply _ shapeCasts_S4x8x2x128x128_S4x16x128x128 (ix4 a D Y c) (ix5 a (halfDepth D) (1 : Fin 2) Y c) (by
      rw [Shape.rowMajor_val_five, Shape.rowMajor_val_four]
      show (((a.val * 8 + D.val / 2) * 2 + 1) * 128 + Y.val) * 128 + c.val = ((a.val * 16 + D.val) * 128 + Y.val) * 128 + c.val
      omega)]
    rw [concatenate_pair_apply_right (t := S4x8x2x128x128) (s₁ := S4x8x1x128x128) (s₂ := S4x8x1x128x128) (2 : Fin 5) _ _ concatenates_S4x8x1x128x128_S4x8x1x128x128_S4x8x2x128x128_d2
      (ix5 a (halfDepth D) (1 : Fin 2) Y c) rfl rfl (ix5 a (halfDepth D) (0 : Fin 1) Y c) (fun b hb => by
        match b with
        | ⟨0, _⟩ => rfl
        | ⟨1, _⟩ => rfl
        | ⟨2, _⟩ => exact absurd rfl hb
        | ⟨3, _⟩ => rfl
        | ⟨4, _⟩ => rfl) rfl]
    exact unit_depth_apply q a (halfDepth D) Y c

end Cert.KernelIdeal.Hand

end
-- ==== Proof.Block.lean ====
/-
  What one grid point leaves in the output block, entry by entry.

  The body reads the input block x (coordinates a, d, y, z), eight coefficients w₀ … w₇ and eight offsets m₀ … m₇, forms
  the eight affine planes x·w_k + m_k, selects planes k and k + 1 (k even) into the even and odd columns, interleaves the
  results of k ∈ {0, 2} and of k ∈ {4, 6} along the rows, and those two along the depth.  So the entry (a, D, Y, Z) of the
  block is x(a, D/2, Y/2, Z/2)·w_k + m_k with k = 4·(D mod 2) + 2·(Y mod 2) + (Z mod 2).
-/
import proofs.«181066_j8332236554530_1_alg».proof.Proof.Planes
import proofs.«181066_j8332236554530_1_alg».proof.Proof.Gen.KernelIdeal.Frame

noncomputable section

namespace Cert.KernelIdeal.Hand

open Cert.KernelIdeal Cert.KernelIdeal.Gen Idealize.ShloMosaic Idealize.ShloMosaic.ValueIdx

theorem zero4 : (![0, 0, 0, 0] : Fin 4 → Nat) = fun _ => 0 := funext fun a => by fin_cases a <;> rfl

/-- The position of an entry inside its 2×2×2 cell, numbered 4·(D mod 2) + 2·(Y mod 2) + (Z mod 2). -/
def cellPos (D : Fin 16) (Y Z : Fin 128) : Fin 8 := ⟨4 * (D.val % 2) + 2 * (Y.val % 2) + Z.val % 2, by omega⟩

theorem cellPos_val (D : Fin 16) (Y Z : Fin 128) : (cellPos D Y Z).val = 4 * (D.val % 2) + 2 * (Y.val % 2) + Z.val % 2 := rfl

/-- The eight planes selected and interleaved, over a flat block X and sixteen scalars. -/
def cells (X : FVec Ideal S2048x64 .f32) (w0 w1 w2 w3 w4 w5 w6 w7 m0 m1 m2 m3 m4 m5 m6 m7 : Ideal .f32) :
    FVec Ideal S4x16x128x128 .f32 :=
  depthIl
    (rowsIl (lanes (k0_pay3 (F := Ideal)) (k0_pay4 (F := Ideal)) (affine X w0 m0) (affine X w1 m1))
            (lanes (k0_pay3 (F := Ideal)) (k0_pay4 (F := Ideal)) (affine X w2 m2) (affine X w3 m3)))
    (rowsIl (lanes (k0_pay3 (F := Ideal)) (k0_pay4 (F := Ideal)) (affine X w4 m4) (affine X w5 m5))
            (lanes (k0_pay3 (F := Ideal)) (k0_pay4 (F := Ideal)) (affine X w6 m6) (affine X w7 m7)))

/-- Choosing among eight by the three parities. -/
def pick (D : Fin 16) (Y Z : Fin 128) (s0 s1 s2 s3 s4 s5 s6 s7 : EReal) : EReal :=
  if D.val % 2 = 0 then
    (if Y.val % 2 = 0 then (if Z.val % 2 = 0 then s0 else s1) else (if Z.val % 2 = 0 then s2 else s3))
  else
    (if Y.val % 2 = 0 then (if Z.val % 2 = 0 then s4 else s5) else (if Z.val % 2 = 0 then s6 else s7))

/-- Choosing among the eight values of a function on positions is the function at the cell position. -/
theorem pick_eq (f : Fin 8 → EReal) (D : Fin 16) (Y Z : Fin 128) :
    pick D Y Z (f 0) (f 1) (f 2) (f 3) (f 4) (f 5) (f 6) (f 7) = f (cellPos D Y Z) := by
  unfold pick
  split_ifs with hD hY hZ hZ hY hZ hZ <;>
    exact congrArg f (Fin.ext (by
      rw [cellPos_val]
      first
        | (show 0 = _; omega) | (show 1 = _; omega) | (show 2 = _; omega) | (show 3 = _; omega)
        | (show 4 = _; omega) | (show 5 = _; omega) | (show 6 = _; omega) | (show 7 = _; omega)))

/-- An entry of the interleaved planes: the flat block at the halved coordinates, times the chosen coefficient, plus the
    chosen offset. -/
theorem cells_apply (X : FVec Ideal S2048x64 .f32) (w0 w1 w2 w3 w4 w5 w6 w7 m0 m1 m2 m3 m4 m5 m6 m7 : Ideal .f32)
    (a : Fin 4) (D : Fin 16) (Y Z : Fin 128) :
    cells X w0 w1 w2 w3 w4 w5 w6 w7 m0 m1 m2 m3 m4 m5 m6 m7 (ix4 a D Y Z)
      = X (ix2 (flatRow a (halfDepth D) (halfOf Y)) (halfOf Z)) * pick D Y Z w0 w1 w2 w3 w4 w5 w6 w7
        + pick D Y Z m0 m1 m2 m3 m4 m5 m6 m7 := by
  unfold cells pick
  rw [depthIl_apply]
  split_ifs with hD hY hZ hZ hY hZ hZ <;>
    simp only [rowsIl_apply, lanes_sel_apply, affine_apply, if_pos, if_neg, hY, hZ, not_false_eq_true]

/-! ## The scalars the body loads -/

section
variable (x : Vec Ideal S1x8 .f32)

theorem scal0 : extractAt ![0, 0] (View.ld x r0_1) inpos_S1x1_p0_0 = x (ix2 (0 : Fin 1) (0 : Fin 8)) :=
  congrArg x (funext fun a => Fin.ext (by match a with | ⟨0, _⟩ => rfl | ⟨1, _⟩ => rfl))
theorem scal1 : extractAt ![0, 0] (View.ld x r0_2) inpos_S1x1_p0_0 = x (ix2 (0 : Fin 1) (1 : Fin 8)) :=
  congrArg x (funext fun a => Fin.ext (by match a with | ⟨0, _⟩ => rfl | ⟨1, _⟩ => rfl))
theorem scal2 : extractAt ![0, 0] (View.ld x r0_3) inpos_S1x1_p0_0 = x (ix2 (0 : Fin 1) (2 : Fin 8)) :=
  congrArg x (funext fun a => Fin.ext (by match a with | ⟨0, _⟩ => rfl | ⟨1, _⟩ => rfl))
theorem scal3 : extractAt ![0, 0] (View.ld x r0_4) inpos_S1x1_p0_0 = x (ix2 (0 : Fin 1) (3 : Fin 8)) :=
  congrArg x (funext fun a => Fin.ext (by match a with | ⟨0, _⟩ => rfl | ⟨1, _⟩ => rfl))
theorem scal4 : extractAt ![0, 0] (View.ld x r0_5) inpos_S1x1_p0_0 = x (ix2 (0 : Fin 1) (4 : Fin 8)) :=
  congrArg x (funext fun a => Fin.ext (by match a with | ⟨0, _⟩ => rfl | ⟨1, _⟩ => rfl))
theorem scal5 : extractAt ![0, 0] (View.ld x r0_6) inpos_S1x1_p0_0 = x (ix2 (0 : Fin 1) (5 : Fin 8)) :=
  congrArg x (funext fun a => Fin.ext (by match a with | ⟨0, _⟩ => rfl | ⟨1, _⟩ => rfl))
theorem scal6 : extractAt ![0, 0] (View.ld x r0_7) inpos_S1x1_p0_0 = x (ix2 (0 : Fin 1) (6 : Fin 8)) :=
  congrArg x (funext fun a => Fin.ext (by match a with | ⟨0, _⟩ => rfl | ⟨1, _⟩ => rfl))
theorem scal7 : extractAt ![0, 0] (View.ld x r0_8) inpos_S1x1_p0_0 = x (ix2 (0 : Fin 1) (7 : Fin 8)) :=
  congrArg x (funext fun a => Fin.ext (by match a with | ⟨0, _⟩ => rfl | ⟨1, _⟩ => rfl))

end

/-! ## The block -/

/-- What the body stores is the interleaved planes over the flat input block and the sixteen loaded scalars. -/
theorem out_cells (x0 : Vec Ideal S4x8x64x64 .f32) (x1 x2 : Vec Ideal S1x8 .f32) :
    out0_3 (F := Ideal) x0 x1 x2
      = cells (k0_pay2 x0)
          (x1 (ix2 (0 : Fin 1) (0 : Fin 8))) (x1 (ix2 (0 : Fin 1) (1 : Fin 8))) (x1 (ix2 (0 : Fin 1) (2 : Fin 8))) (x1 (ix2 (0 : Fin 1) (3 : Fin 8)))
          (x1 (ix2 (0 : Fin 1) (4 : Fin 8))) (x1 (ix2 (0 : Fin 1) (5 : Fin 8))) (x1 (ix2 (0 : Fin 1) (6 : Fin 8))) (x1 (ix2 (0 : Fin 1) (7 : Fin 8)))
          (x2 (ix2 (0 : Fin 1) (0 : Fin 8))) (x2 (ix2 (0 : Fin 1) (1 : Fin 8))) (x2 (ix2 (0 : Fin 1) (2 : Fin 8))) (x2 (ix2 (0 : Fin 1) (3 : Fin 8)))
          (x2 (ix2 (0 : Fin 1) (4 : Fin 8))) (x2 (ix2 (0 : Fin 1) (5 : Fin 8))) (x2 (ix2 (0 : Fin 1) (6 : Fin 8))) (x2 (ix2 (0 : Fin 1) (7 : Fin 8))) := by
  unfold out0_3
  rw [View.canon_unit_zero zero4]
  simp only [View.ld_unit_zero (S := S4x8x64x64) zero4]
  rw [← scal0 x1, ← scal1 x1, ← scal2 x1, ← scal3 x1, ← scal4 x1, ← scal5 x1, ← scal6 x1, ← scal7 x1,
    ← scal0 x2, ← scal1 x2, ← scal2 x2, ← scal3 x2, ← scal4 x2, ← scal5 x2, ← scal6 x2, ← scal7 x2]
  rfl

/-- The block a grid point leaves, as a function of the three input blocks: entry (a, D, Y, Z) is
    x(a, D/2, Y/2, Z/2)·w_k + m_k at the cell position k. -/
def blockVal (x0 : Vec Ideal S4x8x64x64 .f32) (x1 x2 : Vec Ideal S1x8 .f32) : S4x16x128x128.Idx → EReal := fun j =>
  x0 (ix4 (j 0) (halfDepth (j 1)) (halfOf (j 2)) (halfOf (j 3))) * x1 (ix2 (0 : Fin 1) (cellPos (j 1) (j 2) (j 3)))
    + x2 (ix2 (0 : Fin 1) (cellPos (j 1) (j 2) (j 3)))

theorem out_eq (x0 : Vec Ideal S4x8x64x64 .f32) (x1 x2 : Vec Ideal S1x8 .f32) :
    out0_3 (F := Ideal) x0 x1 x2 = blockVal x0 x1 x2 := by
  rw [out_cells]
  funext j
  obtain ⟨a, D, Y, Z, rfl⟩ : ∃ (a : Fin 4) (D : Fin 16) (Y Z : Fin 128), j = ix4 a D Y Z := ⟨j 0, j 1, j 2, j 3, eq_ix4 j⟩
  rw [cells_apply, rows_apply, pick_eq (fun k => x1 (ix2 (0 : Fin 1) k)), pick_eq (fun k => x2 (ix2 (0 : Fin 1) k))]
  rfl

end Cert.KernelIdeal.Hand

end
-- ==== Proof.Spec.lean ====
/-
  The function both programs compute, stated once over literal shapes.

  The input `x` is a volume indexed (b, c, d, y, z) with d, y, z < 64.  Every voxel is expanded to a
  2×2×2 block of the output volume (b, c, D, Y, Z), D, Y, Z < 128: the output voxel (D, Y, Z) lies in the
  block of the input voxel (D/2, Y/2, Z/2), and its position inside that block is the triple of parities,
  numbered `k = 4·(D mod 2) + 2·(Y mod 2) + (Z mod 2)`.  The value there is the affine image

      x(b, c, D/2, Y/2, Z/2) · pc(k, 0) + mean(k).

  Only + and · of extended reals occur, each output entry from one input entry, so no finiteness is needed.
-/
import Idealize.ShloMosaic.PureOps.Ideal
import Idealize.ShloMosaic.Lib.ValueIdx

noncomputable section

namespace Cert.Upsample

open Idealize.ShloMosaic Idealize.ShloMosaic.ValueIdx

/-- The input coordinate under an output coordinate. -/
def half (D : Fin 128) : Fin 64 := ⟨D.val / 2, by have := D.isLt; omega⟩

/-- The position of an output voxel inside its 2×2×2 block, as the number `4·(D mod 2) + 2·(Y mod 2) + (Z mod 2)`. -/
def phase (D Y Z : Fin 128) : Fin 8 := ⟨4 * (D.val % 2) + 2 * (Y.val % 2) + Z.val % 2, by omega⟩

theorem half_val (D : Fin 128) : (half D).val = D.val / 2 := rfl
theorem phase_val (D Y Z : Fin 128) : (phase D Y Z).val = 4 * (D.val % 2) + 2 * (Y.val % 2) + Z.val % 2 := rfl

/-- The upsampled volume: every output voxel is the affine image, by its phase's coefficient and offset, of the
    input voxel under it. -/
def upsampled (x : (⟨5, ![2, 32, 64, 64, 64]⟩ : Shape).Idx → EReal) (mean : (⟨1, ![8]⟩ : Shape).Idx → EReal)
    (pc : (⟨2, ![8, 1]⟩ : Shape).Idx → EReal) : (⟨5, ![2, 32, 128, 128, 128]⟩ : Shape).Idx → EReal :=
  fun j => x (ix5 (j 0) (j 1) (half (j 2)) (half (j 3)) (half (j 4)))
      * pc (ix2 (phase (j 2) (j 3) (j 4)) (0 : Fin 1))
    + mean (ix1 (phase (j 2) (j 3) (j 4)))

/-- The upsampled volume at the entry (b, c, D, Y, Z). -/
theorem upsampled_apply (x : (⟨5, ![2, 32, 64, 64, 64]⟩ : Shape).Idx → EReal) (mean : (⟨1, ![8]⟩ : Shape).Idx → EReal)
    (pc : (⟨2, ![8, 1]⟩ : Shape).Idx → EReal) (b : Fin 2) (c : Fin 32) (D Y Z : Fin 128) :
    upsampled x mean pc (ix5 b c D Y Z)
      = x (ix5 b c (half D) (half Y) (half Z)) * pc (ix2 (phase D Y Z) (0 : Fin 1)) + mean (ix1 (phase D Y Z)) := rfl

end Cert.Upsample

end
-- ==== Proof.Array.lean ====
/-
  From the blocks to the whole array the region writes.

  The grid has 16 × 8 points; point t = (t / 8, t mod 8) reads block (t / 8, t mod 8, 0, 0) of the 64 × 64 × 64 × 64 input
  (4 × 8 × 64 × 64 entries) and writes block (t / 8, t mod 8, 0, 0) of the 64 × 128 × 128 × 128 output
  (4 × 16 × 128 × 128 entries); the coefficient and offset rows are read whole at every point.  An entry of a block at
  local coordinates (a, D, Y, Z) sits in the array at (4·(t/8) + a, 16·(t mod 8) + D, Y, Z), and since 16 is even the parity
  and the half of the global depth are those of the local one shifted by 8·(t mod 8).  Hence every block is the
  restriction of ONE function of the three arrays, and the 128 blocks tile the output.
-/
import proofs.«181066_j8332236554530_1_alg».proof.Proof.Block
import proofs.«181066_j8332236554530_1_alg».proof.Proof.Spec
import proofs.«181066_j8332236554530_1_alg».proof.Proof.Gen.KernelIdeal.Points
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Cert.Upsample (half phase half_val phase_val)

variable (m : (ℓ : Loc nD τ sig) → Buf (Elt Ideal) ℓ) (ρ : Dev nD → PrngReg)

/-- The array the region writes, as one function of the three arrays it reads: entry (n, D, Y, Z) is
    A0(n, D/2, Y/2, Z/2)·A1(0, k) + A2(0, k) at the cell position k of (D, Y, Z). -/
def arrayVal (A0 : S64x64x64x64.Idx → EReal) (A1 A2 : S1x8.Idx → EReal) : S64x128x128x128.Idx → EReal := fun i =>
  A0 (ix4 (i 0) (half (i 1)) (half (i 2)) (half (i 3))) * A1 (ix2 (0 : Fin 1) (phase (i 1) (i 2) (i 3)))
    + A2 (ix2 (0 : Fin 1) (phase (i 1) (i 2) (i 3)))

theorem arrayVal_apply (A0 : S64x64x64x64.Idx → EReal) (A1 A2 : S1x8.Idx → EReal) (n : Fin 64) (D Y Z : Fin 128) :
    arrayVal A0 A1 A2 (ix4 n D Y Z)
      = A0 (ix4 n (half D) (half Y) (half Z)) * A1 (ix2 (0 : Fin 1) (phase D Y Z)) + A2 (ix2 (0 : Fin 1) (phase D Y Z)) := rfl

/-- A block whose entries are the arrays' entries at the shifted coordinates is the restriction of `arrayVal`. -/
theorem block_in_array (x0 : Vec Ideal S4x8x64x64 .f32) (x1 x2 : Vec Ideal S1x8 .f32)
    (A0 : S64x64x64x64.Idx → EReal) (A1 A2 : S1x8.Idx → EReal) (q0 q1 : Nat)
    (h0 : ∀ (y : S4x8x64x64.Idx) (i : S64x64x64x64.Idx), (i 0).val = q0 * 4 + (y 0).val → (i 1).val = q1 * 8 + (y 1).val →
      (i 2).val = (y 2).val → (i 3).val = (y 3).val → x0 y = A0 i)
    (h1 : ∀ k : Fin 8, x1 (ix2 (0 : Fin 1) k) = A1 (ix2 (0 : Fin 1) k))
    (h2 : ∀ k : Fin 8, x2 (ix2 (0 : Fin 1) k) = A2 (ix2 (0 : Fin 1) k))
    (j : S4x16x128x128.Idx) (i : S64x128x128x128.Idx)
    (e0 : (i 0).val = q0 * 4 + (j 0).val) (e1 : (i 1).val = q1 * 16 + (j 1).val)
    (e2 : (i 2).val = (j 2).val) (e3 : (i 3).val = (j 3).val) :
    blockVal x0 x1 x2 j = arrayVal A0 A1 A2 i := by
  unfold blockVal arrayVal
  have hk : cellPos (j 1) (j 2) (j 3) = phase (i 1) (i 2) (i 3) :=
    Fin.ext (by
      show 4 * ((j 1).val % 2) + 2 * ((j 2).val % 2) + (j 3).val % 2
        = 4 * ((i 1).val % 2) + 2 * ((i 2).val % 2) + (i 3).val % 2
      rw [e1, e2, e3]; omega)
  rw [hk, h1, h2]
  rw [h0 (ix4 (j 0) (halfDepth (j 1)) (halfOf (j 2)) (halfOf (j 3))) (ix4 (i 0) (half (i 1)) (half (i 2)) (half (i 3)))
    (by show (i 0).val = q0 * 4 + (j 0).val; exact e0)
    (by show (i 1).val / 2 = q1 * 8 + (j 1).val / 2; rw [e1]; omega)
    (by show (i 2).val / 2 = (j 2).val / 2; rw [e2])
    (by show (i 3).val / 2 = (j 3).val / 2; rw [e3])]

/-- The printed index maps over the grid: the input and output blocks move with (t / 8, t mod 8); the two rows stay. -/
theorem idx_facts : ∀ t : Fin cfg0.N,
    win0_0.index t (0 : Fin 4) = t.val / 8 ∧ win0_0.index t (1 : Fin 4) = t.val % 8
    ∧ win0_0.index t (2 : Fin 4) = 0 ∧ win0_0.index t (3 : Fin 4) = 0
    ∧ win0_3.index t (0 : Fin 4) = t.val / 8 ∧ win0_3.index t (1 : Fin 4) = t.val % 8
    ∧ win0_3.index t (2 : Fin 4) = 0 ∧ win0_3.index t (3 : Fin 4) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point t writes back is block t of `arrayVal` of the arrays as the region finds them. -/
theorem flushed_eq (c : Dev nD) (t : Fin cfg0.N) :
    (dats m 0 c).flushed 3 t
      = ((cfg0.win 3).blk t).view.read (Elt Ideal) (arrayVal (V m c main_v0) (V m c main_v2) (V m c main_v3)) := by
  show (cfg0.win 3).cut (grid0.coords t) ((dats m 0 c).after 3 t) = _
  rw [after0_3]
  obtain ⟨a0, a1, a2, a3, b0, b1, b2, b3, c0, c1, d0, d1⟩ := idx_facts t
  funext j
  show out0_3 (F := Ideal) (iblk m c 0 t) (iblk m c 1 t) (iblk m c 2 t) j
    = arrayVal (V m c main_v0) (V m c main_v2) (V m c main_v3) (((cfg0.win 3).blk t).view.emb j)
  refine (congrFun (out_eq (iblk m c 0 t) (iblk m c 1 t) (iblk m c 2 t)) j).trans ?_
  refine block_in_array _ _ _ _ _ _ (t.val / 8) (t.val % 8) ?_ ?_ ?_ j _ ?_ ?_ ?_ ?_
  · intro y i e0 e1 e2 e3
    show V m c main_v0 (((cfg0.win 0).blk t).view.emb y) = V m c main_v0 i
    refine congrArg _ (funext fun a => Fin.ext ?_)
    match a with
    | ⟨0, _⟩ => show win0_0.index t (0 : Fin 4) * 4 + 1 * (y 0).val = (i 0).val; rw [a0, e0]; omega
    | ⟨1, _⟩ => show win0_0.index t (1 : Fin 4) * 8 + 1 * (y 1).val = (i 1).val; rw [a1, e1]; omega
    | ⟨2, _⟩ => show win0_0.index t (2 : Fin 4) * 64 + 1 * (y 2).val = (i 2).val; rw [a2, e2]; omega
    | ⟨3, _⟩ => show win0_0.index t (3 : Fin 4) * 64 + 1 * (y 3).val = (i 3).val; rw [a3, e3]; omega
  · intro k
    show V m c main_v2 (((cfg0.win 1).blk t).view.emb (ix2 (0 : Fin 1) k)) = V m c main_v2 (ix2 (0 : Fin 1) k)
    refine congrArg _ (funext fun a => Fin.ext ?_)
    match a with
    | ⟨0, _⟩ => show win0_1.index t (0 : Fin 2) * 1 + 1 * 0 = 0; rw [c0]
    | ⟨1, _⟩ => show win0_1.index t (1 : Fin 2) * 8 + 1 * k.val = k.val; rw [c1]; omega
  · intro k
    show V m c main_v3 (((cfg0.win 2).blk t).view.emb (ix2 (0 : Fin 1) k)) = V m c main_v3 (ix2 (0 : Fin 1) k)
    refine congrArg _ (funext fun a => Fin.ext ?_)
    match a with
    | ⟨0, _⟩ => show win0_2.index t (0 : Fin 2) * 1 + 1 * 0 = 0; rw [d0]
    | ⟨1, _⟩ => show win0_2.index t (1 : Fin 2) * 8 + 1 * k.val = k.val; rw [d1]; omega
  · show win0_3.index t (0 : Fin 4) * 4 + 1 * (j 0).val = t.val / 8 * 4 + (j 0).val; rw [b0]; omega
  · show win0_3.index t (1 : Fin 4) * 16 + 1 * (j 1).val = t.val % 8 * 16 + (j 1).val; rw [b1]; omega
  · show win0_3.index t (2 : Fin 4) * 128 + 1 * (j 2).val = (j 2).val; rw [b2]; omega
  · show win0_3.index t (3 : Fin 4) * 128 + 1 * (j 3).val = (j 3).val; rw [b3]; omega

/-- An entry of the array is in point t's block iff each coordinate is in the block's range on its axis. -/
theorem mem_blk (t : Fin cfg0.N) (i : S64x128x128x128.Idx) :
    i ∈ ((cfg0.win 3).blk t).view.set ↔ ∀ a : Fin 4, win0_3.index t a * S4x16x128x128.size a ≤ (i a).val
      ∧ (i a).val < win0_3.index t a * S4x16x128x128.size a + S4x16x128x128.size a := by
  show i ∈ ((View.whole main_v4).slice (win0_3.rect t)).set ↔ _
  rw [View.set_slice_whole, Rect.mem_set_unit]
  exact Iff.rfl

/-- Every entry (n, D, Y, Z) of the array is in the block of the point (n / 4, D / 16). -/
theorem cover (i : S64x128x128x128.Idx) :
    ∃ t : Fin cfg0.N, (cfg0.win 3).flush t = true ∧ i ∈ ((cfg0.win 3).blk t).view.set := by
  have h0 : (i 0).val < 64 := (i 0).isLt
  have h1 : (i 1).val < 128 := (i 1).isLt
  have h2 : (i 2).val < 128 := (i 2).isLt
  have h3 : (i 3).val < 128 := (i 3).isLt
  have hN : cfg0.N = 128 := N_0
  obtain ⟨t, tv⟩ : ∃ t : Fin cfg0.N, t.val = (i 0).val / 4 * 8 + (i 1).val / 16 :=
    ⟨⟨(i 0).val / 4 * 8 + (i 1).val / 16, by rw [hN]; omega⟩, rfl⟩
  obtain ⟨-, -, -, -, b0, b1, b2, b3, -⟩ := idx_facts t
  refine ⟨t, flush0_3 t, ?_⟩
  rw [mem_blk]
  intro a
  match a with
  | ⟨0, _⟩ => show win0_3.index t (0 : Fin 4) * 4 ≤ (i 0).val ∧ (i 0).val < win0_3.index t (0 : Fin 4) * 4 + 4; rw [b0, tv]; omega
  | ⟨1, _⟩ => show win0_3.index t (1 : Fin 4) * 16 ≤ (i 1).val ∧ (i 1).val < win0_3.index t (1 : Fin 4) * 16 + 16; rw [b1, tv]; omega
  | ⟨2, _⟩ => show win0_3.index t (2 : Fin 4) * 128 ≤ (i 2).val ∧ (i 2).val < win0_3.index t (2 : Fin 4) * 128 + 128; rw [b2]; omega
  | ⟨3, _⟩ => show win0_3.index t (3 : Fin 4) * 128 ≤ (i 3).val ∧ (i 3).val < win0_3.index t (3 : Fin 4) * 128 + 128; rw [b3]; omega

/-- After the region the output array holds `arrayVal` of the arrays the region found. -/
theorem final_array (c : Dev nD) :
    (dats m 0 c).arrAt 3 cfg0.N = arrayVal (V m c main_v0) (V m c main_v2) (V m c main_v3) :=
  (dats m 0 c).arrAt_eq_of_cover 3 _ (fun t _ => flushed_eq m c t) cover

end Cert.KernelIdeal.Hand

end
-- ==== Proof.HostSide.lean ====
/-
  The host operations around the region, and the kernel program's run read as one function of its arguments.

  Before the region the program only relabels: the volume (2, 32, 64, 64, 64) becomes (64, 64, 64, 64) by merging the
  first two axes (n = 32·b + c), the coefficients (8, 1) become a row (1, 8), the offsets (8) become a row (1, 8).
  After it the output (64, 128, 128, 128) is split back to (2, 32, 128, 128, 128).  A reshape keeps every entry's
  row-major position, so entry (b, c, D, Y, Z) of the result is entry (32·b + c, D, Y, Z) of the region's output,
  which is x(b, c, D/2, Y/2, Z/2)·pc(k, 0) + mean(k) at the cell position k: the upsampled volume.
-/
import proofs.«181066_j8332236554530_1_alg».proof.Proof.Array
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)
open Cert.Upsample (half phase half_val phase_val upsampled)

variable (m : (ℓ : Loc nD τ sig) → Buf (Elt Ideal) ℓ) (ρ : Dev nD → PrngReg)

/-! ## The arrays the region finds -/

theorem V_v0 (c : Dev nD) : (V m c main_v0 : S64x64x64x64.Idx → EReal)
    = shapeCast S64x64x64x64 (m ((c : Thread nD τ).loc main_arg0)) shapeCasts_S2x32x64x64x64_S64x64x64x64 := by
  show StableHlo.after hostOps0 (fun b => m (c, b)) (Proc.devRef .tc main_v0) = _
  after_results
  rfl

theorem V_v2 (c : Dev nD) : (V m c main_v2 : S1x8.Idx → EReal)
    = shapeCast S1x8 (shapeCast S8 (m ((c : Thread nD τ).loc main_arg2)) shapeCasts_S8x1_S8) shapeCasts_S8_S1x8 := by
  show StableHlo.after hostOps0 (fun b => m (c, b)) (Proc.devRef .tc main_v2) = _
  after_results
  rfl

theorem V_v3 (c : Dev nD) : (V m c main_v3 : S1x8.Idx → EReal)
    = shapeCast S1x8 (m ((c : Thread nD τ).loc main_arg1)) shapeCasts_S8_S1x8 := by
  show StableHlo.after hostOps0 (fun b => m (c, b)) (Proc.devRef .tc main_v3) = _
  after_results
  rfl

/-- The merged volume at (32·b + c, d, y, z) is the volume at (b, c, d, y, z). -/
theorem V_v0_apply (c : Dev nD) (b : Fin 2) (ch : Fin 32) (d y z : Fin 64) (n : Fin 64) (hn : n.val = b.val * 32 + ch.val) :
    V m c main_v0 (ix4 n d y z) = (m ((c : Thread nD τ).loc main_arg0) : S2x32x64x64x64.Idx → EReal) (ix5 b ch d y z) := by
  rw [V_v0]
  exact shapeCast_apply _ shapeCasts_S2x32x64x64x64_S64x64x64x64 (ix4 n d y z) (ix5 b ch d y z) (by
    rw [Shape.rowMajor_val_five, Shape.rowMajor_val_four]
    show (((b.val * 32 + ch.val) * 64 + d.val) * 64 + y.val) * 64 + z.val = ((n.val * 64 + d.val) * 64 + y.val) * 64 + z.val
    rw [hn])

/-- The coefficient row at (0, k) is the coefficient column at (k, 0). -/
theorem V_v2_apply (c : Dev nD) (k : Fin 8) :
    V m c main_v2 (ix2 (0 : Fin 1) k) = (m ((c : Thread nD τ).loc main_arg2) : S8x1.Idx → EReal) (ix2 k (0 : Fin 1)) := by
  rw [V_v2]
  rw [shapeCast_apply _ shapeCasts_S8_S1x8 (ix2 (0 : Fin 1) k) (ix1 k) (by
    rw [Shape.rowMajor_val_one, Shape.rowMajor_val_two]
    show k.val = 0 * 8 + k.val
    omega)]
  exact shapeCast_apply _ shapeCasts_S8x1_S8 (ix1 k) (ix2 k (0 : Fin 1)) (by
    rw [Shape.rowMajor_val_two, Shape.rowMajor_val_one]
    show k.val * 1 + 0 = k.val
    omega)

/-- The offset row at (0, k) is the offset at k. -/
theorem V_v3_apply (c : Dev nD) (k : Fin 8) :
    V m c main_v3 (ix2 (0 : Fin 1) k) = (m ((c : Thread nD τ).loc main_arg1) : S8.Idx → EReal) (ix1 k) := by
  rw [V_v3]
  exact shapeCast_apply _ shapeCasts_S8_S1x8 (ix2 (0 : Fin 1) k) (ix1 k) (by
    rw [Shape.rowMajor_val_one, Shape.rowMajor_val_two]
    show k.val = 0 * 8 + k.val
    omega)

/-! ## The result after the last reshape -/

/-- The region's output split back to five axes is the upsampled volume of the three arguments. -/
theorem result_eq (c : Dev nD) :
    shapeCast S2x32x128x128x128 (arrayVal (V m c main_v0) (V m c main_v2) (V m c main_v3)) shapeCasts_S64x128x128x128_S2x32x128x128x128
      = upsampled (m ((c : Thread nD τ).loc main_arg0)) (m ((c : Thread nD τ).loc main_arg1)) (m ((c : Thread nD τ).loc main_arg2)) := by
  funext j
  obtain ⟨b, ch, D, Y, Z, rfl⟩ : ∃ (b : Fin 2) (ch : Fin 32) (D Y Z : Fin 128), j = ix5 b ch D Y Z :=
    ⟨j 0, j 1, j 2, j 3, j 4, eq_ix5 j⟩
  have hb := b.isLt
  have hch := ch.isLt
  obtain ⟨n, hn⟩ : ∃ n : Fin 64, n.val = b.val * 32 + ch.val := ⟨⟨b.val * 32 + ch.val, by omega⟩, rfl⟩
  rw [shapeCast_apply _ shapeCasts_S64x128x128x128_S2x32x128x128x128 (ix5 b ch D Y Z) (ix4 n D Y Z) (by
    rw [Shape.rowMajor_val_four, Shape.rowMajor_val_five]
    show ((n.val * 128 + D.val) * 128 + Y.val) * 128 + Z.val = (((b.val * 32 + ch.val) * 128 + D.val) * 128 + Y.val) * 128 + Z.val
    rw [hn])]
  rw [arrayVal_apply, Cert.Upsample.upsampled_apply, V_v0_apply m c b ch (half D) (half Y) (half Z) n hn, V_v2_apply, V_v3_apply]

/-! ## The run -/

/-- The last host operation reshapes the array the region left. -/
theorem tail_v5 (c : Dev nD) :
    Pipeline.afterTail₀ cfgs (dats m) 0 (V0 m) [hostOps1] c main_v5
      = shapeCast S2x32x128x128x128 ((dats m 0 c).arrAt 3 cfg0.N) shapeCasts_S64x128x128x128_S2x32x128x128x128 := by
  unfold Pipeline.afterTail₀
  show StableHlo.after hostOps1 _ (Proc.devRef .tc main_v5) = _
  after_results
  rw [Pipeline.withArrays_arr spec0 launch0.win.arr_inj c _ _ 3]
  rfl

/-- Every weakly fair execution of the kernel program terminates with the result at the upsampled volume of the
    arguments, and the arguments unchanged. -/
theorem kernel_run : θ_run defs (onTc (τ := τ) (main (F := Ideal))) ⟨m, fun _ => 0, ρ⟩ (fun r => ∀ c : Dev nD,
      r.2.mem ((c.tc : Thread nD τ).loc main_v5)
        = upsampled (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v5 (Pipeline.mem_restRefs_of main_v5 (by decide) (by decide))).trans
        ((tail_v5 m c).trans (by rw [final_array]; exact result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefSide.lean ====
/-
  The reference's result is the upsampled volume of the specification.

  The reference forms, for every flat voxel number n and every j < 8, the entry x[n] * pc[j, 0] + mean[j] of an
  (N, 8) array (a product whose contracted axis has extent 1: the sum has the one term), views that array as
  (2, 32, 64, 64, 64, 2, 2, 2), exchanges axes to (2, 32, 64, 2, 64, 2, 64, 2) and merges each (64, 2) pair of axes
  into one axis of 128.  Under the output index (b, c, D, Y, Z) the merged axes split as D = 2 (D / 2) + D % 2 and
  likewise for Y and Z, the exchange brings the three remainders to the back, and the row-major position of
  (b, c, D/2, Y/2, Z/2, D%2, Y%2, Z%2) in the rank-8 view is n * 8 + j with
  n = (((b * 32 + c) * 64 + D/2) * 64 + Y/2) * 64 + Z/2 and j = 4 (D%2) + 2 (Y%2) + Z%2: the voxel under the
  output voxel, and its phase.

  Every reshape is read with both indices given in coordinates, so that each row-major equation is linear in the
  coordinates (or, for the last reshape, in the quotients and remainders by 2): no flat position is ever divided.
-/
import proofs.«181066_j8332236554530_1_alg».proof.Proof.Gen.ReferenceIdeal.Run
import Idealize.ShloMosaic.Lib.Pipeline.Value
import Idealize.ShloMosaic.Lib.ValueIdx
import Idealize.ShloMosaic.PureOps.Ideal.Laws
import proofs.«181066_j8332236554530_1_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Upsample

/-! ## Rank 8: indices by coordinates and their row-major position -/

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a0 : Fin n0) (a1 : Fin n1) (a2 : Fin n2) (a3 : Fin n3) (a4 : Fin n4)
    (a5 : Fin n5) (a6 : Fin n6) (a7 : Fin n7) : (⟨8, ![n0, n1, n2, n3, n4, n5, n6, n7]⟩ : Shape).Idx :=
  fun g => match g with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-! ## Coordinates -/

/-- The flat number of the input voxel (b, c, d, y, z). -/
def row (b : Fin 2) (c : Fin 32) (d y z : Fin 64) : Fin 16777216 :=
  ⟨(((b.val * 32 + c.val) * 64 + d.val) * 64 + y.val) * 64 + z.val, by
    have hb := b.isLt; have hc := c.isLt; have hd := d.isLt; have hy := y.isLt; have hz := z.isLt; omega⟩

/-- The number of the position (k0, k1, k2) inside a 2×2×2 block. -/
def col (k0 k1 k2 : Fin 2) : Fin 8 :=
  ⟨(k0.val * 2 + k1.val) * 2 + k2.val, by have h0 := k0.isLt; have h1 := k1.isLt; have h2 := k2.isLt; omega⟩

/-- The remainder of an output coordinate by 2: its position inside the block, along one axis. -/
def par (D : Fin 128) : Fin 2 := ⟨D.val % 2, by omega⟩

/-- The block position of the three remainders is the phase. -/
theorem col_par (D Y Z : Fin 128) : col (par D) (par Y) (par Z) = phase D Y Z :=
  Fin.ext (by
    show (D.val % 2 * 2 + Y.val % 2) * 2 + Z.val % 2 = 4 * (D.val % 2) + 2 * (Y.val % 2) + Z.val % 2
    omega)

/-! ## The nine stages -/

section Stages
variable {F : FTy → Type} [FloatOps F]

/-- x as an (N, 1) array. -/
def st0 (x0 : (⟨S2x32x64x64x64, .f32⟩ : BufTy).Contents (Elt F)) : (⟨S16777216x1, .f32⟩ : BufTy).Contents (Elt F) :=
  shapeCast _ (x0) shapeCasts_S2x32x64x64x64_S16777216x1
/-- The coefficients as a (1, 8) array. -/
def st1 (x2 : (⟨S8x1, .f32⟩ : BufTy).Contents (Elt F)) : (⟨S1x8, .f32⟩ : BufTy).Contents (Elt F) :=
  transpose S1x8 [1, 0] (x2) transposes_S8x1_S1x8_1_0
/-- The (N, 8) array of products. -/
def st2 (x0 : (⟨S2x32x64x64x64, .f32⟩ : BufTy).Contents (Elt F)) (x2 : (⟨S8x1, .f32⟩ : BufTy).Contents (Elt F)) : (⟨S16777216x8, .f32⟩ : BufTy).Contents (Elt F) :=
  Host.dotGeneral dot_S16777216x1_S1x8_S16777216x8_1_0_0_1_n_n none (st0 (F := F) x0) (st1 (F := F) x2)
/-- The offsets as a (1, 8) array. -/
def st3 (x1 : (⟨S8, .f32⟩ : BufTy).Contents (Elt F)) : (⟨S1x8, .f32⟩ : BufTy).Contents (Elt F) :=
  broadcastInDim S1x8 ![1] bcast_S8_S1x8_1 (x1)
/-- The offsets repeated along the N rows. -/
def st4 (x1 : (⟨S8, .f32⟩ : BufTy).Contents (Elt F)) : (⟨S16777216x8, .f32⟩ : BufTy).Contents (Elt F) :=
  broadcastInDim S16777216x8 ![0, 1] bcast_S1x8_S16777216x8_0_1 (st3 (F := F) x1)
/-- The (N, 8) array of products plus offsets. -/
def st5 (x0 : (⟨S2x32x64x64x64, .f32⟩ : BufTy).Contents (Elt F)) (x1 : (⟨S8, .f32⟩ : BufTy).Contents (Elt F)) (x2 : (⟨S8x1, .f32⟩ : BufTy).Contents (Elt F)) : (⟨S16777216x8, .f32⟩ : BufTy).Contents (Elt F) :=
  addf (st2 (F := F) x0 x2) (st4 (F := F) x1)
/-- The same entries as a rank-8 array, block positions last. -/
def st6 (x0 : (⟨S2x32x64x64x64, .f32⟩ : BufTy).Contents (Elt F)) (x1 : (⟨S8, .f32⟩ : BufTy).Contents (Elt F)) (x2 : (⟨S8x1, .f32⟩ : BufTy).Contents (Elt F)) : (⟨S2x32x64x64x64x2x2x2, .f32⟩ : BufTy).Contents (Elt F) :=
  shapeCast _ (st5 (F := F) x0 x1 x2) shapeCasts_S16777216x8_S2x32x64x64x64x2x2x2
/-- Every block position brought behind its spatial coordinate. -/
def st7 (x0 : (⟨S2x32x64x64x64, .f32⟩ : BufTy).Contents (Elt F)) (x1 : (⟨S8, .f32⟩ : BufTy).Contents (Elt F)) (x2 : (⟨S8x1, .f32⟩ : BufTy).Contents (Elt F)) : (⟨S2x32x64x2x64x2x64x2, .f32⟩ : BufTy).Contents (Elt F) :=
  transpose S2x32x64x2x64x2x64x2 [0, 1, 2, 5, 3, 6, 4, 7] (st6 (F := F) x0 x1 x2) transposes_S2x32x64x64x64x2x2x2_S2x32x64x2x64x2x64x2_0_1_2_5_3_6_4_7
/-- Each (64, 2) pair of axes merged into one of 128. -/
def st8 (x0 : (⟨S2x32x64x64x64, .f32⟩ : BufTy).Contents (Elt F)) (x1 : (⟨S8, .f32⟩ : BufTy).Contents (Elt F)) (x2 : (⟨S8x1, .f32⟩ : BufTy).Contents (Elt F)) : (⟨S2x32x128x128x128, .f32⟩ : BufTy).Contents (Elt F) :=
  shapeCast _ (st7 (F := F) x0 x1 x2) shapeCasts_S2x32x64x2x64x2x64x2_S2x32x128x128x128

/-! ## The layout stages at an index -/

/-- Row n = (b, c, d, y, z) of the (N, 1) array is the voxel (b, c, d, y, z). -/
theorem st0_apply (x0 : (⟨S2x32x64x64x64, .f32⟩ : BufTy).Contents (Elt F)) (b : Fin 2) (c : Fin 32) (d y z : Fin 64) :
    st0 (F := F) x0 (ix2 (row b c d y z) (0 : Fin 1)) = x0 (ix5 b c d y z) := by
  unfold st0
  exact shapeCast_apply x0 shapeCasts_S2x32x64x64x64_S16777216x1 (ix2 (row b c d y z) (0 : Fin 1)) (ix5 b c d y z)
    (by
      rewrite [Shape.rowMajor_val_five, Shape.rowMajor_val_two]
      show (((b.val * 32 + c.val) * 64 + d.val) * 64 + y.val) * 64 + z.val
        = ((((b.val * 32 + c.val) * 64 + d.val) * 64 + y.val) * 64 + z.val) * 1 + 0
      omega)

/-- Column j of the (1, 8) coefficients is pc(j, 0). -/
theorem st1_apply (x2 : (⟨S8x1, .f32⟩ : BufTy).Contents (Elt F)) (j : Fin 8) :
    st1 (F := F) x2 (ix2 (0 : Fin 1) j) = x2 (ix2 j (0 : Fin 1)) := by
  unfold st1
  exact transpose_apply [1, 0] x2 transposes_S8x1_S1x8_1_0 (ix2 (0 : Fin 1) j) (ix2 j (0 : Fin 1)) (fun b => match b with
    | ⟨0, _⟩ => rfl
    | ⟨1, _⟩ => rfl)

/-- Column j of the (1, 8) offsets is mean(j). -/
theorem st3_apply (x1 : (⟨S8, .f32⟩ : BufTy).Contents (Elt F)) (j : Fin 8) :
    st3 (F := F) x1 (ix2 (0 : Fin 1) j) = x1 (ix1 j) := by
  unfold st3
  exact broadcastInDim_apply _ bcast_S8_S1x8_1 x1 (ix2 (0 : Fin 1) j) (ix1 j) (fun a => match a with
    | ⟨0, _⟩ => by show j.val = if (8 : Nat) = 1 then 0 else j.val; rw [if_neg (by decide)])

/-- Every row of the repeated offsets is the (1, 8) row. -/
theorem st4_apply (x1 : (⟨S8, .f32⟩ : BufTy).Contents (Elt F)) (n : Fin 16777216) (j : Fin 8) :
    st4 (F := F) x1 (ix2 n j) = st3 (F := F) x1 (ix2 (0 : Fin 1) j) := by
  unfold st4
  generalize st3 (F := F) x1 = y
  exact broadcastInDim_apply _ bcast_S1x8_S16777216x8_0_1 y (ix2 n j) (ix2 (0 : Fin 1) j) (fun a => match a with
    | ⟨0, _⟩ => by show 0 = if (1 : Nat) = 1 then 0 else n.val; rw [if_pos rfl]
    | ⟨1, _⟩ => by show j.val = if (8 : Nat) = 1 then 0 else j.val; rw [if_neg (by decide)])

/-- The sum at an index is the sum of the entries. -/
theorem st5_apply (x0 : (⟨S2x32x64x64x64, .f32⟩ : BufTy).Contents (Elt F)) (x1 : (⟨S8, .f32⟩ : BufTy).Contents (Elt F)) (x2 : (⟨S8x1, .f32⟩ : BufTy).Contents (Elt F)) (i : S16777216x8.Idx) :
    st5 (F := F) x0 x1 x2 i = FloatOps.addf (st2 (F := F) x0 x2 i) (st4 (F := F) x1 i) := rfl

/-- The rank-8 view at (b, c, d, y, z, k0, k1, k2) is the (N, 8) array at row (b, c, d, y, z), column (k0, k1, k2). -/
theorem st6_apply (x0 : (⟨S2x32x64x64x64, .f32⟩ : BufTy).Contents (Elt F)) (x1 : (⟨S8, .f32⟩ : BufTy).Contents (Elt F)) (x2 : (⟨S8x1, .f32⟩ : BufTy).Contents (Elt F)) (b : Fin 2) (c : Fin 32) (d y z : Fin 64) (k0 k1 k2 : Fin 2) :
    st6 (F := F) x0 x1 x2 (ix8 b c d y z k0 k1 k2) = st5 (F := F) x0 x1 x2 (ix2 (row b c d y z) (col k0 k1 k2)) := by
  unfold st6
  generalize st5 (F := F) x0 x1 x2 = v
  exact shapeCast_apply v shapeCasts_S16777216x8_S2x32x64x64x64x2x2x2 (ix8 b c d y z k0 k1 k2)
    (ix2 (row b c d y z) (col k0 k1 k2))
    (by
      rewrite [Shape.rowMajor_val_two, rowMajor_val_eight]
      show ((((b.val * 32 + c.val) * 64 + d.val) * 64 + y.val) * 64 + z.val) * 8 + ((k0.val * 2 + k1.val) * 2 + k2.val)
        = ((((((b.val * 32 + c.val) * 64 + d.val) * 64 + y.val) * 64 + z.val) * 2 + k0.val) * 2 + k1.val) * 2 + k2.val
      omega)

/-- The exchange of axes at an index: the three block positions come from the back. -/
theorem st7_apply (x0 : (⟨S2x32x64x64x64, .f32⟩ : BufTy).Contents (Elt F)) (x1 : (⟨S8, .f32⟩ : BufTy).Contents (Elt F)) (x2 : (⟨S8x1, .f32⟩ : BufTy).Contents (Elt F)) (b : Fin 2) (c : Fin 32) (d : Fin 64) (k0 : Fin 2) (y : Fin 64) (k1 : Fin 2)
    (z : Fin 64) (k2 : Fin 2) :
    st7 (F := F) x0 x1 x2 (ix8 b c d k0 y k1 z k2) = st6 (F := F) x0 x1 x2 (ix8 b c d y z k0 k1 k2) := by
  unfold st7
  generalize st6 (F := F) x0 x1 x2 = v
  exact transpose_apply [0, 1, 2, 5, 3, 6, 4, 7] v transposes_S2x32x64x64x64x2x2x2_S2x32x64x2x64x2x64x2_0_1_2_5_3_6_4_7 (ix8 b c d k0 y k1 z k2) (ix8 b c d y z k0 k1 k2) (fun a => match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl)

/-- The output at (b, c, D, Y, Z) is the rank-8 array at (b, c, D/2, D%2, Y/2, Y%2, Z/2, Z%2). -/
theorem st8_apply (x0 : (⟨S2x32x64x64x64, .f32⟩ : BufTy).Contents (Elt F)) (x1 : (⟨S8, .f32⟩ : BufTy).Contents (Elt F)) (x2 : (⟨S8x1, .f32⟩ : BufTy).Contents (Elt F)) (b : Fin 2) (c : Fin 32) (D Y Z : Fin 128) :
    st8 (F := F) x0 x1 x2 (ix5 b c D Y Z)
      = st7 (F := F) x0 x1 x2 (ix8 b c (half D) (par D) (half Y) (par Y) (half Z) (par Z)) := by
  unfold st8
  generalize st7 (F := F) x0 x1 x2 = v
  exact shapeCast_apply v shapeCasts_S2x32x64x2x64x2x64x2_S2x32x128x128x128 (ix5 b c D Y Z)
    (ix8 b c (half D) (par D) (half Y) (par Y) (half Z) (par Z))
    (by
      rewrite [rowMajor_val_eight, Shape.rowMajor_val_five]
      have hD := D.isLt; have hY := Y.isLt; have hZ := Z.isLt
      show ((((((b.val * 32 + c.val) * 64 + D.val / 2) * 2 + D.val % 2) * 64 + Y.val / 2) * 2 + Y.val % 2) * 64
          + Z.val / 2) * 2 + Z.val % 2 = (((b.val * 32 + c.val) * 128 + D.val) * 128 + Y.val) * 128 + Z.val
      omega)

end Stages

/-! ## The product: a sum of one term -/

theorem lhs_0 (i : S16777216x8.Idx) (q : dot_S16777216x1_S1x8_S16777216x8_1_0_0_1_n_n.contr.Idx) :
    (dot_S16777216x1_S1x8_S16777216x8_1_0_0_1_n_n.lhsIdx i q 0).val = (i 0).val := by
  unfold DotDims.lhsIdx
  rw [dif_neg (show ¬(0 : Fin S16777216x1.rank) ∈ dot_S16777216x1_S1x8_S16777216x8_1_0_0_1_n_n.lhsBatch by decide),
    dif_pos (show (0 : Fin S16777216x1.rank) ∈ dot_S16777216x1_S1x8_S16777216x8_1_0_0_1_n_n.lhsNonContracting by decide)]
  rfl
theorem lhs_1 (i : S16777216x8.Idx) (q : dot_S16777216x1_S1x8_S16777216x8_1_0_0_1_n_n.contr.Idx) :
    (dot_S16777216x1_S1x8_S16777216x8_1_0_0_1_n_n.lhsIdx i q 1).val = (q ⟨0, by decide⟩).val :=
  dot_S16777216x1_S1x8_S16777216x8_1_0_0_1_n_n.lhsIdx_val_of_single rfl i q
theorem rhs_0 (i : S16777216x8.Idx) (q : dot_S16777216x1_S1x8_S16777216x8_1_0_0_1_n_n.contr.Idx) :
    (dot_S16777216x1_S1x8_S16777216x8_1_0_0_1_n_n.rhsIdx i q 0).val = (q ⟨0, by decide⟩).val :=
  dot_S16777216x1_S1x8_S16777216x8_1_0_0_1_n_n.rhsIdx_val_of_single rfl i q
theorem rhs_1 (i : S16777216x8.Idx) (q : dot_S16777216x1_S1x8_S16777216x8_1_0_0_1_n_n.contr.Idx) :
    (dot_S16777216x1_S1x8_S16777216x8_1_0_0_1_n_n.rhsIdx i q 1).val = (i 1).val := by
  unfold DotDims.rhsIdx
  rw [dif_neg (show ¬(1 : Fin S1x8.rank) ∈ dot_S16777216x1_S1x8_S16777216x8_1_0_0_1_n_n.rhsBatch by decide),
    dif_pos (show (1 : Fin S1x8.rank) ∈ dot_S16777216x1_S1x8_S16777216x8_1_0_0_1_n_n.rhsNonContracting by decide)]
  rfl

/-- At the ideal instance the (N, 8) product at (n, j) is x[n] * pc[j]: the contracted axis has extent 1. -/
theorem st2_apply (x0 : (⟨S2x32x64x64x64, .f32⟩ : BufTy).Contents (Elt Ideal)) (x2 : (⟨S8x1, .f32⟩ : BufTy).Contents (Elt Ideal)) (n : Fin 16777216) (j : Fin 8) :
    st2 (F := Ideal) x0 x2 (ix2 n j)
      = st0 (F := Ideal) x0 (ix2 n (0 : Fin 1)) * st1 (F := Ideal) x2 (ix2 (0 : Fin 1) j) := by
  unfold st2
  generalize st0 (F := Ideal) x0 = y0
  generalize st1 (F := Ideal) x2 = y1
  simp only [Host.dotGeneral]
  rw [Ideal.dotGeneral_apply, ← Equiv.sum_comp (contrEquiv1 dot_S16777216x1_S1x8_S16777216x8_1_0_0_1_n_n 1 rfl rfl).symm, Fin.sum_univ_one]
  have hk := contrEquiv1_symm_val dot_S16777216x1_S1x8_S16777216x8_1_0_0_1_n_n 1 rfl rfl (0 : Fin 1)
  have el : dot_S16777216x1_S1x8_S16777216x8_1_0_0_1_n_n.lhsIdx (ix2 n j) ((contrEquiv1 dot_S16777216x1_S1x8_S16777216x8_1_0_0_1_n_n 1 rfl rfl).symm 0) = ix2 n (0 : Fin 1) :=
    funext fun a => Fin.ext (by
      match a with
      | ⟨0, _⟩ => exact lhs_0 _ _
      | ⟨1, _⟩ => exact (lhs_1 _ _).trans hk)
  have er : dot_S16777216x1_S1x8_S16777216x8_1_0_0_1_n_n.rhsIdx (ix2 n j) ((contrEquiv1 dot_S16777216x1_S1x8_S16777216x8_1_0_0_1_n_n 1 rfl rfl).symm 0) = ix2 (0 : Fin 1) j :=
    funext fun a => Fin.ext (by
      match a with
      | ⟨0, _⟩ => exact (rhs_0 _ _).trans hk
      | ⟨1, _⟩ => exact rhs_1 _ _)
  rw [el, er]

/-! ## The reference at an output index -/

/-- The last stage at the output voxel (b, c, D, Y, Z): the input voxel under it, times its phase's coefficient,
    plus its phase's offset. -/
theorem st8_value (x0 : (⟨S2x32x64x64x64, .f32⟩ : BufTy).Contents (Elt Ideal)) (x1 : (⟨S8, .f32⟩ : BufTy).Contents (Elt Ideal)) (x2 : (⟨S8x1, .f32⟩ : BufTy).Contents (Elt Ideal)) (b : Fin 2) (c : Fin 32) (D Y Z : Fin 128) :
    st8 (F := Ideal) x0 x1 x2 (ix5 b c D Y Z)
      = x0 (ix5 b c (half D) (half Y) (half Z)) * x2 (ix2 (phase D Y Z) (0 : Fin 1)) + x1 (ix1 (phase D Y Z)) := by
  rw [st8_apply, st7_apply, st6_apply, st5_apply, st2_apply, st4_apply, st0_apply, st1_apply, st3_apply, Ideal.addf_def,
    col_par]

/-- The reference's result, as a function of its three float arguments, is the upsampled volume. -/
theorem ref_is_upsampled (x0 : (⟨S2x32x64x64x64, .f32⟩ : BufTy).Contents (Elt Ideal)) (x1 : (⟨S8, .f32⟩ : BufTy).Contents (Elt Ideal)) (x2 : (⟨S8x1, .f32⟩ : BufTy).Contents (Elt Ideal)) :
    shapeCast _ (transpose S2x32x64x2x64x2x64x2 [0, 1, 2, 5, 3, 6, 4, 7] (shapeCast _ (addf (F := Ideal) (Host.dotGeneral (F := Ideal) (φ₁ := .f32) (φ₂ := .f32) dot_S16777216x1_S1x8_S16777216x8_1_0_0_1_n_n none (shapeCast _ (x0) shapeCasts_S2x32x64x64x64_S16777216x1) (transpose S1x8 [1, 0] (x2) transposes_S8x1_S1x8_1_0)) (broadcastInDim S16777216x8 ![0, 1] bcast_S1x8_S16777216x8_0_1 (broadcastInDim S1x8 ![1] bcast_S8_S1x8_1 (x1)))) shapeCasts_S16777216x8_S2x32x64x64x64x2x2x2) transposes_S2x32x64x64x64x2x2x2_S2x32x64x2x64x2x64x2_0_1_2_5_3_6_4_7) shapeCasts_S2x32x64x2x64x2x64x2_S2x32x128x128x128
      = upsampled x0 x1 x2 := by
  show st8 (F := Ideal) x0 x1 x2 = _
  funext j
  obtain ⟨b, c, D, Y, Z, rfl⟩ : ∃ (b : Fin 2) (c : Fin 32) (D Y Z : Fin 128), j = ix5 b c D Y Z :=
    ⟨j 0, j 1, j 2, j 3, j 4, eq_ix5 j⟩
  rw [upsampled_apply]
  exact st8_value x0 x1 x2 b c D Y Z

end Cert.ReferenceIdeal.RefValue

end
-- ==== Proof.lean ====
/-
  A 3-D upsampling by 2 in each of three axes: every voxel of x (2 × 32 × 64 × 64 × 64) becomes a 2 × 2 × 2 cell of the
  result (2 × 32 × 128 × 128 × 128), the entry at position k = 4·k0 + 2·k1 + k2 of the cell being x·pc(k, 0) + mean(k).

  The reference forms all eight affine images of every voxel as one matrix product with a contracted axis of extent one
  (a single product per entry) plus a broadcast row, and moves them into place by a reshape, a transpose and a reshape.
  The kernel forms, per grid point, the eight affine planes of its input block and moves them into place itself: a
  product with a 0/1 matrix that keeps the even columns, one with the matrix that keeps the odd columns, their sum, then
  two stack-and-merge interleaves.  Over the extended reals a·0 = 0 for every a, so each 0/1 product has exactly one
  surviving term and the sums are exact: both programs end at the same function of the arguments, `upsampled`
  (Proof/Spec.lean), entry by entry.  No input needs to be finite for that.

  The three frames are the generated ones (the reference's is its generated run with the result dropped); the
  idealization rewrote nothing, so that conjunct is trivial.
-/
import proofs.«181066_j8332236554530_1_alg».proof.Defs
import proofs.«181066_j8332236554530_1_alg».proof.Proof.Gen.Kernel
import proofs.«181066_j8332236554530_1_alg».proof.Proof.Gen.Kernel.Skeleton
import proofs.«181066_j8332236554530_1_alg».proof.Proof.Gen.Kernel.Launch
import proofs.«181066_j8332236554530_1_alg».proof.Proof.Gen.Kernel.Points
import proofs.«181066_j8332236554530_1_alg».proof.Proof.Gen.Kernel.Frame
import proofs.«181066_j8332236554530_1_alg».proof.Proof.Gen.KernelIdeal
import proofs.«181066_j8332236554530_1_alg».proof.Proof.Gen.KernelIdeal.Skeleton
import proofs.«181066_j8332236554530_1_alg».proof.Proof.Gen.KernelIdeal.Launch
import proofs.«181066_j8332236554530_1_alg».proof.Proof.Gen.KernelIdeal.Points
import proofs.«181066_j8332236554530_1_alg».proof.Proof.Gen.KernelIdeal.Frame
import proofs.«181066_j8332236554530_1_alg».proof.Proof.Gen.ReferenceIdeal
import proofs.«181066_j8332236554530_1_alg».proof.Proof.Gen.Pre_finite_inputs
import proofs.«181066_j8332236554530_1_alg».proof.Proof.Gen.ReferenceIdeal.Run
import proofs.«181066_j8332236554530_1_alg».proof.Proof.HostSide
import proofs.«181066_j8332236554530_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at the upsampled volume of arguments that agree. -/
theorem algebraic : Cert.algebraic_KernelIdeal_ReferenceIdeal := by
  intro m ρ m' ρ' _ hagree
  refine ⟨fun c => Cert.Upsample.upsampled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_is_upsampled,
    (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
